-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x128 .f32) (main_arg1 : FVec F S128x128 .f32) (main_arg2 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S2048x128 : Shape := ⟨2, ![2048, 128]⟩
abbrev S2048x1 : Shape := ⟨2, ![2048, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x1 : S2048x128.Slices ![0, 0] S2048x1
  slices_S128x128_o0_0_S1x128 : S128x128.Slices ![0, 0] S1x128
  broadcasts_S2048x1_S2048x128 : S2048x1.Broadcasts S2048x128
  slices_S2048x128_o0_1_S2048x1 : S2048x128.Slices ![0, 1] S2048x1
  slices_S128x128_o1_0_S1x128 : S128x128.Slices ![1, 0] S1x128
  slices_S2048x128_o0_2_S2048x1 : S2048x128.Slices ![0, 2] S2048x1
  slices_S128x128_o2_0_S1x128 : S128x128.Slices ![2, 0] S1x128
  slices_S2048x128_o0_3_S2048x1 : S2048x128.Slices ![0, 3] S2048x1
  slices_S128x128_o3_0_S1x128 : S128x128.Slices ![3, 0] S1x128
  slices_S2048x128_o0_4_S2048x1 : S2048x128.Slices ![0, 4] S2048x1
  slices_S128x128_o4_0_S1x128 : S128x128.Slices ![4, 0] S1x128
  slices_S2048x128_o0_5_S2048x1 : S2048x128.Slices ![0, 5] S2048x1
  slices_S128x128_o5_0_S1x128 : S128x128.Slices ![5, 0] S1x128
  slices_S2048x128_o0_6_S2048x1 : S2048x128.Slices ![0, 6] S2048x1
  slices_S128x128_o6_0_S1x128 : S128x128.Slices ![6, 0] S1x128
  slices_S2048x128_o0_7_S2048x1 : S2048x128.Slices ![0, 7] S2048x1
  slices_S128x128_o7_0_S1x128 : S128x128.Slices ![7, 0] S1x128
  slices_S2048x128_o0_8_S2048x1 : S2048x128.Slices ![0, 8] S2048x1
  slices_S128x128_o8_0_S1x128 : S128x128.Slices ![8, 0] S1x128
  slices_S2048x128_o0_9_S2048x1 : S2048x128.Slices ![0, 9] S2048x1
  slices_S128x128_o9_0_S1x128 : S128x128.Slices ![9, 0] S1x128
  slices_S2048x128_o0_10_S2048x1 : S2048x128.Slices ![0, 10] S2048x1
  slices_S128x128_o10_0_S1x128 : S128x128.Slices ![10, 0] S1x128
  slices_S2048x128_o0_11_S2048x1 : S2048x128.Slices ![0, 11] S2048x1
  slices_S128x128_o11_0_S1x128 : S128x128.Slices ![11, 0] S1x128
  slices_S2048x128_o0_12_S2048x1 : S2048x128.Slices ![0, 12] S2048x1
  slices_S128x128_o12_0_S1x128 : S128x128.Slices ![12, 0] S1x128
  slices_S2048x128_o0_13_S2048x1 : S2048x128.Slices ![0, 13] S2048x1
  slices_S128x128_o13_0_S1x128 : S128x128.Slices ![13, 0] S1x128
  slices_S2048x128_o0_14_S2048x1 : S2048x128.Slices ![0, 14] S2048x1
  slices_S128x128_o14_0_S1x128 : S128x128.Slices ![14, 0] S1x128
  slices_S2048x128_o0_15_S2048x1 : S2048x128.Slices ![0, 15] S2048x1
  slices_S128x128_o15_0_S1x128 : S128x128.Slices ![15, 0] S1x128
  slices_S2048x128_o0_16_S2048x1 : S2048x128.Slices ![0, 16] S2048x1
  slices_S128x128_o16_0_S1x128 : S128x128.Slices ![16, 0] S1x128
  slices_S2048x128_o0_17_S2048x1 : S2048x128.Slices ![0, 17] S2048x1
  slices_S128x128_o17_0_S1x128 : S128x128.Slices ![17, 0] S1x128
  slices_S2048x128_o0_18_S2048x1 : S2048x128.Slices ![0, 18] S2048x1
  slices_S128x128_o18_0_S1x128 : S128x128.Slices ![18, 0] S1x128
  slices_S2048x128_o0_19_S2048x1 : S2048x128.Slices ![0, 19] S2048x1
  slices_S128x128_o19_0_S1x128 : S128x128.Slices ![19, 0] S1x128
  slices_S2048x128_o0_20_S2048x1 : S2048x128.Slices ![0, 20] S2048x1
  slices_S128x128_o20_0_S1x128 : S128x128.Slices ![20, 0] S1x128
  slices_S2048x128_o0_21_S2048x1 : S2048x128.Slices ![0, 21] S2048x1
  slices_S128x128_o21_0_S1x128 : S128x128.Slices ![21, 0] S1x128
  slices_S2048x128_o0_22_S2048x1 : S2048x128.Slices ![0, 22] S2048x1
  slices_S128x128_o22_0_S1x128 : S128x128.Slices ![22, 0] S1x128
  slices_S2048x128_o0_23_S2048x1 : S2048x128.Slices ![0, 23] S2048x1
  slices_S128x128_o23_0_S1x128 : S128x128.Slices ![23, 0] S1x128
  slices_S2048x128_o0_24_S2048x1 : S2048x128.Slices ![0, 24] S2048x1
  slices_S128x128_o24_0_S1x128 : S128x128.Slices ![24, 0] S1x128
  slices_S2048x128_o0_25_S2048x1 : S2048x128.Slices ![0, 25] S2048x1
  slices_S128x128_o25_0_S1x128 : S128x128.Slices ![25, 0] S1x128
  slices_S2048x128_o0_26_S2048x1 : S2048x128.Slices ![0, 26] S2048x1
  slices_S128x128_o26_0_S1x128 : S128x128.Slices ![26, 0] S1x128
  slices_S2048x128_o0_27_S2048x1 : S2048x128.Slices ![0, 27] S2048x1
  slices_S128x128_o27_0_S1x128 : S128x128.Slices ![27, 0] S1x128
  slices_S2048x128_o0_28_S2048x1 : S2048x128.Slices ![0, 28] S2048x1
  slices_S128x128_o28_0_S1x128 : S128x128.Slices ![28, 0] S1x128
  slices_S2048x128_o0_29_S2048x1 : S2048x128.Slices ![0, 29] S2048x1
  slices_S128x128_o29_0_S1x128 : S128x128.Slices ![29, 0] S1x128
  slices_S2048x128_o0_30_S2048x1 : S2048x128.Slices ![0, 30] S2048x1
  slices_S128x128_o30_0_S1x128 : S128x128.Slices ![30, 0] S1x128
  slices_S2048x128_o0_31_S2048x1 : S2048x128.Slices ![0, 31] S2048x1
  slices_S128x128_o31_0_S1x128 : S128x128.Slices ![31, 0] S1x128
  slices_S2048x128_o0_32_S2048x1 : S2048x128.Slices ![0, 32] S2048x1
  slices_S128x128_o32_0_S1x128 : S128x128.Slices ![32, 0] S1x128
  slices_S2048x128_o0_33_S2048x1 : S2048x128.Slices ![0, 33] S2048x1
  slices_S128x128_o33_0_S1x128 : S128x128.Slices ![33, 0] S1x128
  slices_S2048x128_o0_34_S2048x1 : S2048x128.Slices ![0, 34] S2048x1
  slices_S128x128_o34_0_S1x128 : S128x128.Slices ![34, 0] S1x128
  slices_S2048x128_o0_35_S2048x1 : S2048x128.Slices ![0, 35] S2048x1
  slices_S128x128_o35_0_S1x128 : S128x128.Slices ![35, 0] S1x128
  slices_S2048x128_o0_36_S2048x1 : S2048x128.Slices ![0, 36] S2048x1
  slices_S128x128_o36_0_S1x128 : S128x128.Slices ![36, 0] S1x128
  slices_S2048x128_o0_37_S2048x1 : S2048x128.Slices ![0, 37] S2048x1
  slices_S128x128_o37_0_S1x128 : S128x128.Slices ![37, 0] S1x128
  slices_S2048x128_o0_38_S2048x1 : S2048x128.Slices ![0, 38] S2048x1
  slices_S128x128_o38_0_S1x128 : S128x128.Slices ![38, 0] S1x128
  slices_S2048x128_o0_39_S2048x1 : S2048x128.Slices ![0, 39] S2048x1
  slices_S128x128_o39_0_S1x128 : S128x128.Slices ![39, 0] S1x128
  slices_S2048x128_o0_40_S2048x1 : S2048x128.Slices ![0, 40] S2048x1
  slices_S128x128_o40_0_S1x128 : S128x128.Slices ![40, 0] S1x128
  slices_S2048x128_o0_41_S2048x1 : S2048x128.Slices ![0, 41] S2048x1
  slices_S128x128_o41_0_S1x128 : S128x128.Slices ![41, 0] S1x128
  slices_S2048x128_o0_42_S2048x1 : S2048x128.Slices ![0, 42] S2048x1
  slices_S128x128_o42_0_S1x128 : S128x128.Slices ![42, 0] S1x128
  slices_S2048x128_o0_43_S2048x1 : S2048x128.Slices ![0, 43] S2048x1
  slices_S128x128_o43_0_S1x128 : S128x128.Slices ![43, 0] S1x128
  slices_S2048x128_o0_44_S2048x1 : S2048x128.Slices ![0, 44] S2048x1
  slices_S128x128_o44_0_S1x128 : S128x128.Slices ![44, 0] S1x128
  slices_S2048x128_o0_45_S2048x1 : S2048x128.Slices ![0, 45] S2048x1
  slices_S128x128_o45_0_S1x128 : S128x128.Slices ![45, 0] S1x128
  slices_S2048x128_o0_46_S2048x1 : S2048x128.Slices ![0, 46] S2048x1
  slices_S128x128_o46_0_S1x128 : S128x128.Slices ![46, 0] S1x128
  slices_S2048x128_o0_47_S2048x1 : S2048x128.Slices ![0, 47] S2048x1
  slices_S128x128_o47_0_S1x128 : S128x128.Slices ![47, 0] S1x128
  slices_S2048x128_o0_48_S2048x1 : S2048x128.Slices ![0, 48] S2048x1
  slices_S128x128_o48_0_S1x128 : S128x128.Slices ![48, 0] S1x128
  slices_S2048x128_o0_49_S2048x1 : S2048x128.Slices ![0, 49] S2048x1
  slices_S128x128_o49_0_S1x128 : S128x128.Slices ![49, 0] S1x128
  slices_S2048x128_o0_50_S2048x1 : S2048x128.Slices ![0, 50] S2048x1
  slices_S128x128_o50_0_S1x128 : S128x128.Slices ![50, 0] S1x128
  slices_S2048x128_o0_51_S2048x1 : S2048x128.Slices ![0, 51] S2048x1
  slices_S128x128_o51_0_S1x128 : S128x128.Slices ![51, 0] S1x128
  slices_S2048x128_o0_52_S2048x1 : S2048x128.Slices ![0, 52] S2048x1
  slices_S128x128_o52_0_S1x128 : S128x128.Slices ![52, 0] S1x128
  slices_S2048x128_o0_53_S2048x1 : S2048x128.Slices ![0, 53] S2048x1
  slices_S128x128_o53_0_S1x128 : S128x128.Slices ![53, 0] S1x128
  slices_S2048x128_o0_54_S2048x1 : S2048x128.Slices ![0, 54] S2048x1
  slices_S128x128_o54_0_S1x128 : S128x128.Slices ![54, 0] S1x128
  slices_S2048x128_o0_55_S2048x1 : S2048x128.Slices ![0, 55] S2048x1
  slices_S128x128_o55_0_S1x128 : S128x128.Slices ![55, 0] S1x128
  slices_S2048x128_o0_56_S2048x1 : S2048x128.Slices ![0, 56] S2048x1
  slices_S128x128_o56_0_S1x128 : S128x128.Slices ![56, 0] S1x128
  slices_S2048x128_o0_57_S2048x1 : S2048x128.Slices ![0, 57] S2048x1
  slices_S128x128_o57_0_S1x128 : S128x128.Slices ![57, 0] S1x128
  slices_S2048x128_o0_58_S2048x1 : S2048x128.Slices ![0, 58] S2048x1
  slices_S128x128_o58_0_S1x128 : S128x128.Slices ![58, 0] S1x128
  slices_S2048x128_o0_59_S2048x1 : S2048x128.Slices ![0, 59] S2048x1
  slices_S128x128_o59_0_S1x128 : S128x128.Slices ![59, 0] S1x128
  slices_S2048x128_o0_60_S2048x1 : S2048x128.Slices ![0, 60] S2048x1
  slices_S128x128_o60_0_S1x128 : S128x128.Slices ![60, 0] S1x128
  slices_S2048x128_o0_61_S2048x1 : S2048x128.Slices ![0, 61] S2048x1
  slices_S128x128_o61_0_S1x128 : S128x128.Slices ![61, 0] S1x128
  slices_S2048x128_o0_62_S2048x1 : S2048x128.Slices ![0, 62] S2048x1
  slices_S128x128_o62_0_S1x128 : S128x128.Slices ![62, 0] S1x128
  slices_S2048x128_o0_63_S2048x1 : S2048x128.Slices ![0, 63] S2048x1
  slices_S128x128_o63_0_S1x128 : S128x128.Slices ![63, 0] S1x128
  slices_S2048x128_o0_64_S2048x1 : S2048x128.Slices ![0, 64] S2048x1
  slices_S128x128_o64_0_S1x128 : S128x128.Slices ![64, 0] S1x128
  slices_S2048x128_o0_65_S2048x1 : S2048x128.Slices ![0, 65] S2048x1
  slices_S128x128_o65_0_S1x128 : S128x128.Slices ![65, 0] S1x128
  slices_S2048x128_o0_66_S2048x1 : S2048x128.Slices ![0, 66] S2048x1
  slices_S128x128_o66_0_S1x128 : S128x128.Slices ![66, 0] S1x128
  slices_S2048x128_o0_67_S2048x1 : S2048x128.Slices ![0, 67] S2048x1
  slices_S128x128_o67_0_S1x128 : S128x128.Slices ![67, 0] S1x128
  slices_S2048x128_o0_68_S2048x1 : S2048x128.Slices ![0, 68] S2048x1
  slices_S128x128_o68_0_S1x128 : S128x128.Slices ![68, 0] S1x128
  slices_S2048x128_o0_69_S2048x1 : S2048x128.Slices ![0, 69] S2048x1
  slices_S128x128_o69_0_S1x128 : S128x128.Slices ![69, 0] S1x128
  slices_S2048x128_o0_70_S2048x1 : S2048x128.Slices ![0, 70] S2048x1
  slices_S128x128_o70_0_S1x128 : S128x128.Slices ![70, 0] S1x128
  slices_S2048x128_o0_71_S2048x1 : S2048x128.Slices ![0, 71] S2048x1
  slices_S128x128_o71_0_S1x128 : S128x128.Slices ![71, 0] S1x128
  slices_S2048x128_o0_72_S2048x1 : S2048x128.Slices ![0, 72] S2048x1
  slices_S128x128_o72_0_S1x128 : S128x128.Slices ![72, 0] S1x128
  slices_S2048x128_o0_73_S2048x1 : S2048x128.Slices ![0, 73] S2048x1
  slices_S128x128_o73_0_S1x128 : S128x128.Slices ![73, 0] S1x128
  slices_S2048x128_o0_74_S2048x1 : S2048x128.Slices ![0, 74] S2048x1
  slices_S128x128_o74_0_S1x128 : S128x128.Slices ![74, 0] S1x128
  slices_S2048x128_o0_75_S2048x1 : S2048x128.Slices ![0, 75] S2048x1
  slices_S128x128_o75_0_S1x128 : S128x128.Slices ![75, 0] S1x128
  slices_S2048x128_o0_76_S2048x1 : S2048x128.Slices ![0, 76] S2048x1
  slices_S128x128_o76_0_S1x128 : S128x128.Slices ![76, 0] S1x128
  slices_S2048x128_o0_77_S2048x1 : S2048x128.Slices ![0, 77] S2048x1
  slices_S128x128_o77_0_S1x128 : S128x128.Slices ![77, 0] S1x128
  slices_S2048x128_o0_78_S2048x1 : S2048x128.Slices ![0, 78] S2048x1
  slices_S128x128_o78_0_S1x128 : S128x128.Slices ![78, 0] S1x128
  slices_S2048x128_o0_79_S2048x1 : S2048x128.Slices ![0, 79] S2048x1
  slices_S128x128_o79_0_S1x128 : S128x128.Slices ![79, 0] S1x128
  slices_S2048x128_o0_80_S2048x1 : S2048x128.Slices ![0, 80] S2048x1
  slices_S128x128_o80_0_S1x128 : S128x128.Slices ![80, 0] S1x128
  slices_S2048x128_o0_81_S2048x1 : S2048x128.Slices ![0, 81] S2048x1
  slices_S128x128_o81_0_S1x128 : S128x128.Slices ![81, 0] S1x128
  slices_S2048x128_o0_82_S2048x1 : S2048x128.Slices ![0, 82] S2048x1
  slices_S128x128_o82_0_S1x128 : S128x128.Slices ![82, 0] S1x128
  slices_S2048x128_o0_83_S2048x1 : S2048x128.Slices ![0, 83] S2048x1
  slices_S128x128_o83_0_S1x128 : S128x128.Slices ![83, 0] S1x128
  slices_S2048x128_o0_84_S2048x1 : S2048x128.Slices ![0, 84] S2048x1
  slices_S128x128_o84_0_S1x128 : S128x128.Slices ![84, 0] S1x128
  slices_S2048x128_o0_85_S2048x1 : S2048x128.Slices ![0, 85] S2048x1
  slices_S128x128_o85_0_S1x128 : S128x128.Slices ![85, 0] S1x128
  slices_S2048x128_o0_86_S2048x1 : S2048x128.Slices ![0, 86] S2048x1
  slices_S128x128_o86_0_S1x128 : S128x128.Slices ![86, 0] S1x128
  slices_S2048x128_o0_87_S2048x1 : S2048x128.Slices ![0, 87] S2048x1
  slices_S128x128_o87_0_S1x128 : S128x128.Slices ![87, 0] S1x128
  slices_S2048x128_o0_88_S2048x1 : S2048x128.Slices ![0, 88] S2048x1
  slices_S128x128_o88_0_S1x128 : S128x128.Slices ![88, 0] S1x128
  slices_S2048x128_o0_89_S2048x1 : S2048x128.Slices ![0, 89] S2048x1
  slices_S128x128_o89_0_S1x128 : S128x128.Slices ![89, 0] S1x128
  slices_S2048x128_o0_90_S2048x1 : S2048x128.Slices ![0, 90] S2048x1
  slices_S128x128_o90_0_S1x128 : S128x128.Slices ![90, 0] S1x128
  slices_S2048x128_o0_91_S2048x1 : S2048x128.Slices ![0, 91] S2048x1
  slices_S128x128_o91_0_S1x128 : S128x128.Slices ![91, 0] S1x128
  slices_S2048x128_o0_92_S2048x1 : S2048x128.Slices ![0, 92] S2048x1
  slices_S128x128_o92_0_S1x128 : S128x128.Slices ![92, 0] S1x128
  slices_S2048x128_o0_93_S2048x1 : S2048x128.Slices ![0, 93] S2048x1
  slices_S128x128_o93_0_S1x128 : S128x128.Slices ![93, 0] S1x128
  slices_S2048x128_o0_94_S2048x1 : S2048x128.Slices ![0, 94] S2048x1
  slices_S128x128_o94_0_S1x128 : S128x128.Slices ![94, 0] S1x128
  slices_S2048x128_o0_95_S2048x1 : S2048x128.Slices ![0, 95] S2048x1
  slices_S128x128_o95_0_S1x128 : S128x128.Slices ![95, 0] S1x128
  slices_S2048x128_o0_96_S2048x1 : S2048x128.Slices ![0, 96] S2048x1
  slices_S128x128_o96_0_S1x128 : S128x128.Slices ![96, 0] S1x128
  slices_S2048x128_o0_97_S2048x1 : S2048x128.Slices ![0, 97] S2048x1
  slices_S128x128_o97_0_S1x128 : S128x128.Slices ![97, 0] S1x128
  slices_S2048x128_o0_98_S2048x1 : S2048x128.Slices ![0, 98] S2048x1
  slices_S128x128_o98_0_S1x128 : S128x128.Slices ![98, 0] S1x128
  slices_S2048x128_o0_99_S2048x1 : S2048x128.Slices ![0, 99] S2048x1
  slices_S128x128_o99_0_S1x128 : S128x128.Slices ![99, 0] S1x128
  slices_S2048x128_o0_100_S2048x1 : S2048x128.Slices ![0, 100] S2048x1
  slices_S128x128_o100_0_S1x128 : S128x128.Slices ![100, 0] S1x128
  slices_S2048x128_o0_101_S2048x1 : S2048x128.Slices ![0, 101] S2048x1
  slices_S128x128_o101_0_S1x128 : S128x128.Slices ![101, 0] S1x128
  slices_S2048x128_o0_102_S2048x1 : S2048x128.Slices ![0, 102] S2048x1
  slices_S128x128_o102_0_S1x128 : S128x128.Slices ![102, 0] S1x128
  slices_S2048x128_o0_103_S2048x1 : S2048x128.Slices ![0, 103] S2048x1
  slices_S128x128_o103_0_S1x128 : S128x128.Slices ![103, 0] S1x128
  slices_S2048x128_o0_104_S2048x1 : S2048x128.Slices ![0, 104] S2048x1
  slices_S128x128_o104_0_S1x128 : S128x128.Slices ![104, 0] S1x128
  slices_S2048x128_o0_105_S2048x1 : S2048x128.Slices ![0, 105] S2048x1
  slices_S128x128_o105_0_S1x128 : S128x128.Slices ![105, 0] S1x128
  slices_S2048x128_o0_106_S2048x1 : S2048x128.Slices ![0, 106] S2048x1
  slices_S128x128_o106_0_S1x128 : S128x128.Slices ![106, 0] S1x128
  slices_S2048x128_o0_107_S2048x1 : S2048x128.Slices ![0, 107] S2048x1
  slices_S128x128_o107_0_S1x128 : S128x128.Slices ![107, 0] S1x128
  slices_S2048x128_o0_108_S2048x1 : S2048x128.Slices ![0, 108] S2048x1
  slices_S128x128_o108_0_S1x128 : S128x128.Slices ![108, 0] S1x128
  slices_S2048x128_o0_109_S2048x1 : S2048x128.Slices ![0, 109] S2048x1
  slices_S128x128_o109_0_S1x128 : S128x128.Slices ![109, 0] S1x128
  slices_S2048x128_o0_110_S2048x1 : S2048x128.Slices ![0, 110] S2048x1
  slices_S128x128_o110_0_S1x128 : S128x128.Slices ![110, 0] S1x128
  slices_S2048x128_o0_111_S2048x1 : S2048x128.Slices ![0, 111] S2048x1
  slices_S128x128_o111_0_S1x128 : S128x128.Slices ![111, 0] S1x128
  slices_S2048x128_o0_112_S2048x1 : S2048x128.Slices ![0, 112] S2048x1
  slices_S128x128_o112_0_S1x128 : S128x128.Slices ![112, 0] S1x128
  slices_S2048x128_o0_113_S2048x1 : S2048x128.Slices ![0, 113] S2048x1
  slices_S128x128_o113_0_S1x128 : S128x128.Slices ![113, 0] S1x128
  slices_S2048x128_o0_114_S2048x1 : S2048x128.Slices ![0, 114] S2048x1
  slices_S128x128_o114_0_S1x128 : S128x128.Slices ![114, 0] S1x128
  slices_S2048x128_o0_115_S2048x1 : S2048x128.Slices ![0, 115] S2048x1
  slices_S128x128_o115_0_S1x128 : S128x128.Slices ![115, 0] S1x128
  slices_S2048x128_o0_116_S2048x1 : S2048x128.Slices ![0, 116] S2048x1
  slices_S128x128_o116_0_S1x128 : S128x128.Slices ![116, 0] S1x128
  slices_S2048x128_o0_117_S2048x1 : S2048x128.Slices ![0, 117] S2048x1
  slices_S128x128_o117_0_S1x128 : S128x128.Slices ![117, 0] S1x128
  slices_S2048x128_o0_118_S2048x1 : S2048x128.Slices ![0, 118] S2048x1
  slices_S128x128_o118_0_S1x128 : S128x128.Slices ![118, 0] S1x128
  slices_S2048x128_o0_119_S2048x1 : S2048x128.Slices ![0, 119] S2048x1
  slices_S128x128_o119_0_S1x128 : S128x128.Slices ![119, 0] S1x128
  slices_S2048x128_o0_120_S2048x1 : S2048x128.Slices ![0, 120] S2048x1
  slices_S128x128_o120_0_S1x128 : S128x128.Slices ![120, 0] S1x128
  slices_S2048x128_o0_121_S2048x1 : S2048x128.Slices ![0, 121] S2048x1
  slices_S128x128_o121_0_S1x128 : S128x128.Slices ![121, 0] S1x128
  slices_S2048x128_o0_122_S2048x1 : S2048x128.Slices ![0, 122] S2048x1
  slices_S128x128_o122_0_S1x128 : S128x128.Slices ![122, 0] S1x128
  slices_S2048x128_o0_123_S2048x1 : S2048x128.Slices ![0, 123] S2048x1
  slices_S128x128_o123_0_S1x128 : S128x128.Slices ![123, 0] S1x128
  slices_S2048x128_o0_124_S2048x1 : S2048x128.Slices ![0, 124] S2048x1
  slices_S128x128_o124_0_S1x128 : S128x128.Slices ![124, 0] S1x128
  slices_S2048x128_o0_125_S2048x1 : S2048x128.Slices ![0, 125] S2048x1
  slices_S128x128_o125_0_S1x128 : S128x128.Slices ![125, 0] S1x128
  slices_S2048x128_o0_126_S2048x1 : S2048x128.Slices ![0, 126] S2048x1
  slices_S128x128_o126_0_S1x128 : S128x128.Slices ![126, 0] S1x128
  slices_S2048x128_o0_127_S2048x1 : S2048x128.Slices ![0, 127] S2048x1
  slices_S128x128_o127_0_S1x128 : S128x128.Slices ![127, 0] S1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S16384x128x1 : Shape := ⟨3, ![16384, 128, 1]⟩
abbrev S1x128x128 : Shape := ⟨3, ![1, 128, 128]⟩
abbrev S16384x128x128 : Shape := ⟨3, ![16384, 128, 128]⟩
abbrev S_ : Shape := ⟨0, ![]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S16384x128x1, .f32⟩
  | .hbm, ⟨4, _⟩ => ⟨S1x128x128, .f32⟩
  | .hbm, ⟨5, _⟩ => ⟨S16384x128x128, .f32⟩
  | .hbm, ⟨6, _⟩ => ⟨S16384x128x128, .f32⟩
  | .hbm, ⟨7, _⟩ => ⟨S16384x128x128, .f32⟩
  | .hbm, ⟨8, _⟩ => ⟨S_, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S128x128_S1x128x128_1_2 : S128x128.BroadcastsInDim S1x128x128 (![1, 2] : Fin 2 → Fin S1x128x128.rank)
  bcast_S16384x128x1_S16384x128x128_0_1_2 : S16384x128x1.BroadcastsInDim S16384x128x128 (![0, 1, 2] : Fin 3 → Fin S16384x128x128.rank)
  bcast_S1x128x128_S16384x128x128_0_1_2 : S1x128x128.BroadcastsInDim S16384x128x128 (![0, 1, 2] : Fin 3 → Fin S16384x128x128.rank)
  reducesTo_S16384x128x128_S16384x128_d1 : S16384x128x128.ReducesTo [1] S16384x128
  h_S_ : 0 < S_.numel
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)

variable [Facts₀]

class Facts : Prop extends Facts₀ where

variable [Facts]
-- ==== Proof.LibMaxPlus.lean ====
/-
  Max-plus (tropical) accumulation on the extended reals.

  A running maximum that starts from a value `b` and takes in the terms `f 0, f 1, …, f (n-1)` one after the
  other ends at the maximum of `b` and the supremum of the terms: `max` on a linear order is associative,
  commutative and idempotent, so neither the order in which the terms arrive nor where `b` enters matters, and no
  finiteness is needed (`-∞` is the empty supremum, `+∞` absorbs).  A supremum over `k < n` of a family
  defined through `Fin n` is the supremum over `Fin n`.
-/
import Idealize.ShloMosaic.PureOps.Ideal

noncomputable section

namespace Cert.LibMaxPlus

/-- The running maximum: `chain f b n = max (… (max (max b (f 0)) (f 1)) …) (f (n-1))`. -/
def chain (f : ℕ → EReal) (b : EReal) : ℕ → EReal
  | 0 => b
  | n + 1 => max (chain f b n) (f n)

/-- The running maximum from `b` over the first `n` terms is the larger of their supremum and `b`. -/
theorem chain_eq_sup (f : ℕ → EReal) (b : EReal) (n : ℕ) :
    chain f b n = max ((Finset.range n).sup f) b := by
  induction n with
  | zero => simp [chain]
  | succ n ih =>
    rw [chain, ih, Finset.range_add_one, Finset.sup_insert]
    apply le_antisymm
    · refine max_le (max_le ?_ (le_max_right _ _)) ?_
      · exact le_trans (le_sup_right) (le_max_left _ _)
      · exact le_trans (le_sup_left) (le_max_left _ _)
    · refine max_le (sup_le ?_ ?_) ?_
      · exact le_max_right _ _
      · exact le_trans (le_max_left _ _) (le_max_left _ _)
      · exact le_trans (le_max_right _ _) (le_max_left _ _)

/-- The supremum over `k < n` of a sequence that agrees below `n` with a family over `Fin n` is the supremum of
    the family. -/
theorem sup_range_eq {n : ℕ} (f : ℕ → EReal) (g : Fin n → EReal) (h : ∀ k : Fin n, f k.val = g k) :
    (Finset.range n).sup f = Finset.univ.sup g := by
  apply le_antisymm
  · refine Finset.sup_le fun k hk => ?_
    have hk' : k < n := Finset.mem_range.mp hk
    have e : f k = g ⟨k, hk'⟩ := h ⟨k, hk'⟩
    rw [e]
    exact Finset.le_sup (f := g) (Finset.mem_univ _)
  · refine Finset.sup_le fun k _ => ?_
    rw [← h k]
    exact Finset.le_sup (f := f) (Finset.mem_range.mpr k.isLt)

/-- The running maximum from `b` over the first `n` terms of a sequence that agrees below `n` with a family over
    `Fin n` is the larger of the family's supremum and `b`. -/
theorem chain_eq_of {n : ℕ} (f : ℕ → EReal) (g : Fin n → EReal) (b : EReal) (h : ∀ k : Fin n, f k.val = g k) :
    chain f b n = max (Finset.univ.sup g) b := by
  rw [chain_eq_sup, sup_range_eq f g h]

/-- A fold of `max` from `-∞` over a finite type is the supremum. -/
theorem fold_max_bot {ι : Type*} [Fintype ι] (g : ι → EReal) :
    Finset.fold max ⊥ g Finset.univ = Finset.univ.sup g := rfl

end Cert.LibMaxPlus

end
-- ==== Proof.LibNatCoords.lean ====
/-
  Reading a rank-two array of extended reals by natural-number coordinates.

  `rd P a b` is the entry of `P` at row `a` and column `b` when both are in range, and `-∞` otherwise.  Every index
  reads as `rd` of its two coordinates, so an entry reached through any closed-form index function is named by the
  two numbers alone.
-/
import Idealize.ShloMosaic.PureOps.Ideal
import Idealize.ShloMosaic.Lib.ValueIdx

noncomputable section

namespace Cert.LibNatCoords

open Idealize.ShloMosaic Idealize.ShloMosaic.ValueIdx

/-- The entry at row `a`, column `b`; `-∞` off the array. -/
def rd {n0 n1 : ℕ} (P : (⟨2, ![n0, n1]⟩ : Shape).Idx → EReal) (a b : ℕ) : EReal :=
  if h : a < n0 ∧ b < n1 then P (ix2 ⟨a, h.1⟩ ⟨b, h.2⟩) else ⊥

/-- Every entry is `rd` at the index's two coordinates. -/
theorem rd_eq {n0 n1 : ℕ} (P : (⟨2, ![n0, n1]⟩ : Shape).Idx → EReal) (j : (⟨2, ![n0, n1]⟩ : Shape).Idx) :
    P j = rd P (j 0).val (j 1).val := by
  rw [rd, dif_pos ⟨(j 0).isLt, (j 1).isLt⟩]
  exact congrArg P (eq_ix2 j)

/-- `rd` at two coordinates in range is the entry at the index they make. -/
theorem rd_ix2 {n0 n1 : ℕ} (P : (⟨2, ![n0, n1]⟩ : Shape).Idx → EReal) (p : Fin n0) (q : Fin n1) :
    rd P p.val q.val = P (ix2 p q) := by
  rw [rd, dif_pos ⟨p.isLt, q.isLt⟩]

end Cert.LibNatCoords

end
-- ==== Proof.KernelBlock.lean ====
/-
  What the kernel body leaves in its output block, entry by entry.

  The body keeps an accumulator that starts as the bias row broadcast over the 2048 rows of the block and takes in,
  for i = 0, …, 127 in this order, the sum of column i of the x block (broadcast along the lanes) and row i of the
  weight block (broadcast along the rows).  First the stored value is restated as that recurrence on whole vectors
  (`vchain`: the body's 128 unrolled steps are the recurrence's 128 unfoldings).  Then the recurrence is read at an
  entry (p, q) by induction on the number of steps: it is the running maximum from `b q` over the terms
  `x p i + w i q`, which is the larger of their supremum and `b q`.
-/
import proofs.«105636_j5609227288817_2_alg».proof.Proof.KernelIdealFrameP
import proofs.«105636_j5609227288817_2_alg».proof.Proof.LibMaxPlus
import proofs.«105636_j5609227288817_2_alg».proof.Proof.LibNatCoords
import Idealize.ShloMosaic.Lib.ValueIdx
import Idealize.ShloMosaic.Lib.Pipeline.Value

noncomputable section

namespace Cert.KernelIdeal.Block

open Cert.KernelIdeal Cert.KernelIdeal.Gen Cert.KernelIdeal.GenP
open Idealize.ShloMosaic Idealize.ShloMosaic.ValueIdx Cert.LibMaxPlus Cert.LibNatCoords

theorem hz : (![0, 0] : Fin 2 → Nat) = fun _ => 0 := funext fun a => by fin_cases a <;> rfl

/-- Column `i` of a [2048, 128] block is a [2048, 1] slice of it. -/
theorem slices_col (i : ℕ) (h : i < 128) : S2048x128.Slices ![0, i] S2048x1 :=
  ⟨rfl, fun a => by
    match a with
    | ⟨0, _⟩ => show 0 + 2048 ≤ 2048; omega
    | ⟨1, _⟩ => show i + 1 ≤ 128; omega⟩

/-- Row `i` of a [128, 128] block is a [1, 128] slice of it. -/
theorem slices_row (i : ℕ) (h : i < 128) : S128x128.Slices ![i, 0] S1x128 :=
  ⟨rfl, fun a => by
    match a with
    | ⟨0, _⟩ => show i + 1 ≤ 128; omega
    | ⟨1, _⟩ => show 0 + 128 ≤ 128; omega⟩

section Vectors

variable (x : Vec Ideal S2048x128 .f32) (w : Vec Ideal S128x128 .f32) (b : Vec Ideal S1x128 .f32)

/-- Step `i`'s addend as a whole vector: column `i` of `x` along the lanes plus row `i` of `w` along the rows. -/
def vterm (i : ℕ) : FVec Ideal S2048x128 .f32 :=
  if h : i < 128 then
    addf (broadcastTo S2048x128 (extractStridedSlice S2048x1 ![0, i] x (slices_col i h)) broadcasts_S2048x1_S2048x128)
      (broadcastTo S2048x128 (extractStridedSlice S1x128 ![i, 0] w (slices_row i h)) broadcasts_S1x128_S2048x128)
  else fun _ => ⊥

/-- The accumulator after `n` steps, as a whole vector. -/
def vchain : ℕ → FVec Ideal S2048x128 .f32
  | 0 => broadcastTo S2048x128
      (shapeCast S1x128 (shapeCast S1x128 b shapeCasts_S1x128_S1x128) shapeCasts_S1x128_S1x128)
      broadcasts_S1x128_S2048x128
  | n + 1 => maximumf (vchain n) (vterm x w n)

/-- The value the body stores is the accumulator after all 128 steps: the printed operations, in their order, are the
    recurrence unfolded. -/
theorem stored_eq :
    k0_pay1 (k0_pay26 x w (k0_pay24 x w (k0_pay22 x w (k0_pay20 x w (k0_pay18 x w (k0_pay16 x w (k0_pay14 x w
      (k0_pay12 x w (k0_pay10 x w (k0_pay8 x w (k0_pay6 x w (k0_pay4 x w (k0_pay2 x w b) (k0_pay3 x w))
      (k0_pay5 x w)) (k0_pay7 x w)) (k0_pay9 x w)) (k0_pay11 x w)) (k0_pay13 x w)) (k0_pay15 x w)) (k0_pay17 x w))
      (k0_pay19 x w)) (k0_pay21 x w)) (k0_pay23 x w)) (k0_pay25 x w)) (k0_pay27 x w)
      = vchain x w b 128 := rfl

/-- The bias row broadcast over the rows, read at `y`, is the bias entry under column `y₁`. -/
theorem vchain_zero_apply (y : S2048x128.Idx) : vchain x w b 0 y = rd b 0 (y 1).val := by
  show broadcastTo S2048x128 (shapeCast S1x128 (shapeCast S1x128 b _) _) _ y = _
  rw [shapeCast_self, shapeCast_self]
  rw [broadcastTo_apply b broadcasts_S1x128_S2048x128 y (ix2 (⟨0, Nat.one_pos⟩ : Fin 1) (y 1 : Fin 128))
    (fun a => by
      match a with
      | ⟨0, _⟩ => show 0 = if (1 : Nat) = 1 then 0 else _; rw [if_pos rfl]
      | ⟨1, _⟩ => show (y 1).val = if (128 : Nat) = 1 then 0 else (y 1).val; rw [if_neg (by decide)])]
  exact (rd_ix2 b (⟨0, Nat.one_pos⟩ : Fin 1) (y 1 : Fin 128)).symm

/-- Step `i`'s addend read at `y`: the x entry in row `y₀`, column `i`, plus the w entry in row `i`, column `y₁`. -/
theorem vterm_apply (i : ℕ) (h : i < 128) (y : S2048x128.Idx) :
    vterm x w i y = rd x (y 0).val i + rd w i (y 1).val := by
  rw [vterm, dif_pos h]
  show broadcastTo S2048x128 (extractStridedSlice S2048x1 ![0, i] x _) _ y
      + broadcastTo S2048x128 (extractStridedSlice S1x128 ![i, 0] w _) _ y = _
  congr 1
  · rw [broadcastTo_apply _ broadcasts_S2048x1_S2048x128 y (ix2 (y 0 : Fin 2048) (⟨0, Nat.one_pos⟩ : Fin 1))
      (fun a => by
        match a with
        | ⟨0, _⟩ => show (y 0).val = if (2048 : Nat) = 1 then 0 else (y 0).val; rw [if_neg (by decide)]
        | ⟨1, _⟩ => show 0 = if (1 : Nat) = 1 then 0 else _; rw [if_pos rfl])]
    rw [extractStridedSlice_apply _ x (slices_col i h) _ (ix2 (y 0 : Fin 2048) (⟨i, h⟩ : Fin 128))
      (fun a => by
        match a with
        | ⟨0, _⟩ => show (y 0).val = 0 + (y 0).val; omega
        | ⟨1, _⟩ => show i = i + 0; omega)]
    exact (rd_ix2 x (y 0 : Fin 2048) (⟨i, h⟩ : Fin 128)).symm
  · rw [broadcastTo_apply _ broadcasts_S1x128_S2048x128 y (ix2 (⟨0, Nat.one_pos⟩ : Fin 1) (y 1 : Fin 128))
      (fun a => by
        match a with
        | ⟨0, _⟩ => show 0 = if (1 : Nat) = 1 then 0 else _; rw [if_pos rfl]
        | ⟨1, _⟩ => show (y 1).val = if (128 : Nat) = 1 then 0 else (y 1).val; rw [if_neg (by decide)])]
    rw [extractStridedSlice_apply _ w (slices_row i h) _ (ix2 (⟨i, h⟩ : Fin 128) (y 1 : Fin 128))
      (fun a => by
        match a with
        | ⟨0, _⟩ => show i = i + 0; omega
        | ⟨1, _⟩ => show (y 1).val = 0 + (y 1).val; omega)]
    exact (rd_ix2 w (⟨i, h⟩ : Fin 128) (y 1 : Fin 128)).symm

/-- The accumulator after `n ≤ 128` steps, read at `y`, is the running maximum from the bias entry over the first
    `n` sums. -/
theorem vchain_apply (n : ℕ) (hn : n ≤ 128) (y : S2048x128.Idx) :
    vchain x w b n y = chain (fun k => rd x (y 0).val k + rd w k (y 1).val) (rd b 0 (y 1).val) n := by
  induction n with
  | zero => exact vchain_zero_apply x w b y
  | succ n ih =>
    show max (vchain x w b n y) (vterm x w n y) = max (chain _ _ n) _
    rw [ih (by omega), vterm_apply x w n (by omega) y]

end Vectors

/-- The 128 sums that meet at entry `y` of the output block: `x (y₀, i) + w (i, y₁)`. -/
def sums (x : Vec Ideal S2048x128 .f32) (w : Vec Ideal S128x128 .f32) (y : S2048x128.Idx) (i : Fin 128) : EReal :=
  x (ix2 (y 0 : Fin 2048) i) + w (ix2 i (y 1 : Fin 128))

/-- The one-row bias block read under column `y₁`. -/
def biasAt (b : Vec Ideal S1x128 .f32) (y : S2048x128.Idx) : EReal :=
  b (ix2 (⟨0, Nat.one_pos⟩ : Fin 1) (y 1 : Fin 128))

/-- What the body leaves in the output's staging buffer, from the three input blocks: at every entry the larger of
    the supremum of the 128 sums and the bias entry. -/
theorem out_apply (x : Vec Ideal S2048x128 .f32) (w : Vec Ideal S128x128 .f32) (b : Vec Ideal S1x128 .f32)
    (y : S2048x128.Idx) :
    out0_3 (F := Ideal) x w b y = max (Finset.univ.sup (sums x w y)) (biasAt b y) := by
  unfold out0_3
  rw [View.canon_unit_zero hz]
  simp only [View.ld_unit_zero (S := S2048x128) hz, View.ld_unit_zero (S := S128x128) hz,
    View.ld_unit_zero (S := S1x128) hz]
  rw [stored_eq, vchain_apply x w b 128 (le_refl _) y,
    chain_eq_of _ (sums x w y) _ (fun k => ?_)]
  · congr 1
    exact rd_ix2 b (⟨0, Nat.one_pos⟩ : Fin 1) (y 1 : Fin 128)
  · show rd x (y 0).val k.val + rd w k.val (y 1).val = _
    rw [rd_ix2 x (y 0 : Fin 2048) k, rd_ix2 w k (y 1 : Fin 128)]
    rfl

end Cert.KernelIdeal.Block

end
-- ==== Proof.Spec.lean ====
/-
  The max-plus (tropical) dense layer, as one function of its three argument arrays.

  For `x : [16384, 128]`, `w : [128, 128]` and `b : [128]` over the extended reals the result at row `r` and
  column `u` is

      max (sup over i of (x r i + w i u)) (b u).

  Both programs are shown to end at this function: the reference builds the [16384, 128, 128] array of sums,
  reduces it with `max` from `-∞` over the middle axis and takes the maximum with the bias row; the kernel starts
  its accumulator at the bias row and takes in the 128 sums one after the other.
-/
import Idealize.ShloMosaic.PureOps.Ideal
import Idealize.ShloMosaic.Lib.ValueIdx

noncomputable section

namespace Cert.Spec

open Idealize.ShloMosaic Idealize.ShloMosaic.ValueIdx

/-- `out r u = max (sup_i (x r i + w i u)) (b u)` on the extended reals. -/
def maxPlusDense (x : (⟨2, ![16384, 128]⟩ : Shape).Idx → EReal) (w : (⟨2, ![128, 128]⟩ : Shape).Idx → EReal)
    (b : (⟨1, ![128]⟩ : Shape).Idx → EReal) : (⟨2, ![16384, 128]⟩ : Shape).Idx → EReal :=
  fun i => max (Finset.univ.sup fun k : Fin 128 => x (ix2 (i 0 : Fin 16384) k) + w (ix2 k (i 1 : Fin 128)))
    (b (ix1 (i 1 : Fin 128)))

end Cert.Spec

end
-- ==== Proof.KernelArray.lean ====
/-
  From the output blocks to the output array.

  The grid has 8 points; point `t` works on rows 2048·t … 2048·t + 2047 of `x` and of the result, and on the whole
  weight matrix and the whole one-row bias array at every point.  So entry (p, q) of the block written back at point
  `t` is entry (2048·t + p, q) of ONE whole-array function of the three arrays the region finds, and the 8 blocks cover
  all 16384 rows: the result array ends at that function.  The one-row bias array is the bias vector reshaped by the
  host before the region, so its entry (0, u) is the vector's entry u.
-/
import proofs.«105636_j5609227288817_2_alg».proof.Proof.KernelBlock
import proofs.«105636_j5609227288817_2_alg».proof.Proof.Spec
import Idealize.ShloMosaic.Lib.StableHlo.Run
import Idealize.ShloMosaic.Lib.Tactic

noncomputable section

namespace Cert.KernelIdeal.Array

open Cert.KernelIdeal Cert.KernelIdeal.Gen Cert.KernelIdeal.GenP Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result as one function of the arrays the region finds: the activations, the weights, and the bias as a
    one-row array. -/
def arrayFn (X : S16384x128.Idx → EReal) (W : S128x128.Idx → EReal) (B : S1x128.Idx → EReal) :
    S16384x128.Idx → EReal :=
  fun i => max (Finset.univ.sup fun k : Fin 128 => X (ix2 (i 0 : Fin 16384) k) + W (ix2 k (i 1 : Fin 128)))
    (B (ix2 (⟨0, Nat.one_pos⟩ : Fin 1) (i 1 : Fin 128)))

/-- The printed index maps over the 8 grid points: the activations' and the result's block index is (t, 0), the
    weights' and the bias row's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `x` of the activations' block at point `t` is entry (2048·t + x₀, x₁) of the array. -/
theorem xblk_apply (c : Dev nD) (t : Fin cfg0.N) (x : S2048x128.Idx) (i : S16384x128.Idx)
    (h0 : (i 0).val = 2048 * t.val + (x 0).val) (h1 : (i 1).val = (x 1).val) :
    (iblk m c 0 t : Vec Ideal S2048x128 .f32) x = (V m c main_arg0 : S16384x128.Idx → EReal) i := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * (x 0).val = (i 0).val; rw [e0, h0]; omega
  | ⟨1, _⟩ => show win0_0.index t (1 : Fin 2) * 128 + 1 * (x 1).val = (i 1).val; rw [e1, h1]; omega

/-- The weights' block at every point is the whole weight array. -/
theorem wblk_apply (c : Dev nD) (t : Fin cfg0.N) (x : S128x128.Idx) :
    (iblk m c 1 t : Vec Ideal S128x128 .f32) x = (V m c main_arg1 : S128x128.Idx → EReal) x := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The bias window's block at every point is the whole one-row bias array. -/
theorem bblk_apply (c : Dev nD) (t : Fin cfg0.N) (x : S1x128.Idx) :
    (iblk m c 2 t : Vec Ideal S1x128 .f32) x = (V m c main_call0_v0 : S1x128.Idx → EReal) x := by
  obtain ⟨-, -, -, -, e0, e1, -⟩ := idx_facts t
  unfold iblk
  rw [View.read_apply]
  show V m c main_call0_v0 _ = V m c main_call0_v0 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- `arrayFn` at an index whose two coordinates are `p` and `q`. -/
theorem arrayFn_apply_of (X : S16384x128.Idx → EReal) (W : S128x128.Idx → EReal) (B : S1x128.Idx → EReal)
    (i : S16384x128.Idx) (p : Fin 16384) (q : Fin 128) (hp : (i 0).val = p.val) (hq : (i 1).val = q.val) :
    arrayFn X W B i
      = max (Finset.univ.sup fun k : Fin 128 => X (ix2 p k) + W (ix2 k q)) (B (ix2 (⟨0, Nat.one_pos⟩ : Fin 1) q)) := by
  obtain rfl : (i 0 : Fin 16384) = p := Fin.ext hp
  obtain rfl : (i 1 : Fin 128) = q := Fin.ext hq
  rfl

/-- WHAT POINT `t` WRITES BACK is block `t` of `arrayFn` of the arrays as the region finds them. -/
theorem flushed_eq (c : Dev nD) (t : Fin cfg0.N) :
    (dats m 0 c).flushed 3 t = ((cfg0.win 3).blk t).view.read (Elt Ideal)
      (arrayFn (V m c main_arg0) (V m c main_arg1) (V m c main_call0_v0)) := by
  show (cfg0.win 3).cut (grid0.coords t) ((dats m 0 c).after 3 t) = _
  rw [after0_3]
  obtain ⟨-, -, -, -, -, -, e0, e1⟩ := idx_facts t
  funext j
  refine (out_apply (iblk m c 0 t) (iblk m c 1 t) (iblk m c 2 t) j).trans ?_
  rw [View.read_apply]
  have hj0 : (j 0).val < 2048 := (j 0).isLt
  have hj1 : (j 1).val < 128 := (j 1).isLt
  have ht : t.val < 8 := Nat.lt_of_lt_of_eq t.isLt (N_0 : cfg0.N = 8)
  have c0 : ((((cfg0.win 3).blk t).view.emb j) 0).val = 2048 * t.val + (j 0).val := by
    show win0_3.index t (0 : Fin 2) * 2048 + 1 * (j 0).val = _; rw [e0]; omega
  have c1 : ((((cfg0.win 3).blk t).view.emb j) 1).val = (j 1).val := by
    show win0_3.index t (1 : Fin 2) * 128 + 1 * (j 1).val = _; rw [e1]; omega
  refine Eq.trans ?_ (arrayFn_apply_of _ _ _ _ (⟨2048 * t.val + (j 0).val, by omega⟩ : Fin 16384)
    (⟨(j 1).val, hj1⟩ : Fin 128) c0 c1).symm
  unfold sums biasAt
  refine congrArg₂ max (congrArg (Finset.sup Finset.univ) (funext fun k => congrArg₂ (· + ·) ?_ ?_)) ?_
  · exact xblk_apply m c t _ _ rfl rfl
  · exact wblk_apply m c t _
  · exact bblk_apply m c t _

/-- An index of the array is in point `t`'s block iff each coordinate is in the block's range on its axis. -/
theorem mem_blk (t : Fin cfg0.N) (i : S16384x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v0).slice (win0_3.rect t)).set ↔ _
  rw [View.set_slice_whole, Rect.mem_set_unit]
  exact Iff.rfl

/-- Every row of the result lies in the block of the point `row / 2048`. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 8 := N_0
  let t : Fin cfg0.N := ⟨(i 0).val / 2048, by rw [hN]; omega⟩
  obtain ⟨-, -, -, -, -, -, e0, e1⟩ := idx_facts t
  have ht : t.val = (i 0).val / 2048 := rfl
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 128 ≤ (i 1).val ∧ (i 1).val < win0_3.index t (1 : Fin 2) * 128 + 128
    rw [e1]; omega

/-- THE ARRAY after the run is `arrayFn` of the arrays the region finds. -/
theorem final_region (c : Dev nD) :
    (dats m 0 c).arrAt 3 cfg0.N = arrayFn (V m c main_arg0) (V m c main_arg1) (V m c main_call0_v0) :=
  (dats m 0 c).arrAt_eq_of_cover 3 _ (fun t _ => flushed_eq m c t) cover

/-- The one-row bias array the region finds is the bias vector reshaped: entry (0, u) is the vector's entry u. -/
theorem bias_row (c : Dev nD) (u : Fin 128) :
    (V m c main_call0_v0 : S1x128.Idx → EReal) (ix2 (⟨0, Nat.one_pos⟩ : Fin 1) u)
      = (m ((c : Thread nD τ).loc main_arg2) : S128.Idx → EReal) (ix1 u) := by
  have e : (V m c main_call0_v0 : S1x128.Idx → EReal)
      = shapeCast S1x128 (m ((c : Thread nD τ).loc main_arg2) : S128.Idx → EReal) shapeCasts_S128_S1x128 := by
    dsimp only [GenP.V, Gen.hostOps0]; after_results; rfl
  rw [e]
  refine shapeCast_apply _ shapeCasts_S128_S1x128 _ (ix1 u) ?_
  rw [Shape.rowMajor_val_one, Shape.rowMajor_val_two]
  show u.val = 0 * 128 + u.val
  omega

/-- THE RESULT ARRAY after the run is the max-plus dense layer of the three argument arrays. -/
theorem final (c : Dev nD) :
    (dats m 0 c).arrAt 3 cfg0.N
      = Cert.Spec.maxPlusDense (m ((c : Thread nD τ).loc main_arg0)) (m ((c : Thread nD τ).loc main_arg1))
          (m ((c : Thread nD τ).loc main_arg2)) := by
  rw [final_region]
  funext i
  unfold arrayFn Cert.Spec.maxPlusDense
  refine congrArg₂ max ?_ (bias_row m c (i 1 : Fin 128))
  rw [V_main_arg0, V_main_arg1]

/-- The kernel's run, read: the result array at the max-plus dense layer of the arguments, the arguments unchanged.
    The frame run leaves every windowed array at what the blocks written back make of it and every other buffer as the
    region found it; the result's array is read by `final`, an input's array is never written back, and the bias
    vector is no window's array. -/
theorem run : θ_run defs (onTc (τ := τ) (main (F := Ideal))) ⟨m, fun _ => 0, ρ⟩ fun r => ∀ c : Dev nD,
      r.2.mem ((c : Thread nD τ).loc main_v0)
        = Cert.Spec.maxPlusDense (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Array

end
-- ==== Proof.RefValue.lean ====
/-
  The reference computes the max-plus dense layer.

  Its last stage is `max (reduce) (bias row)`.  The reduce runs `max` from `-∞` over the middle axis of the
  [16384, 128, 128] array whose entry (r, i, u) is `x r i + w i u` (two broadcasts and an add), so at (r, u) it is
  the supremum over `i` of those sums; the bias row is `b` broadcast over the rows.  Entry by entry that is
  `Cert.Spec.maxPlusDense`.
-/
import proofs.«105636_j5609227288817_2_alg».proof.Proof.Gen.ReferenceIdeal.Read
import proofs.«105636_j5609227288817_2_alg».proof.Proof.Spec
import proofs.«105636_j5609227288817_2_alg».proof.Proof.LibMaxPlus
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The f32 word of negative infinity is the bottom of the extended reals. -/
theorem neg_inf : Ideal.ofBits .f32 0xFF800000#32 = (⊥ : EReal) := by
  simp [Ideal.ofBits, Ideal.ieee]

/-- The reduced index (r, u) with `i` put back on the middle axis is (r, i, u). -/
theorem lift_mid (h : S16384x128x128.Reduces [1] S16384x128) (j : S16384x128.Idx) (k : Fin 128) :
    h.lift j k = ix3 (j 0 : Fin 16384) k (j 1 : Fin 128) := by
  funext c; apply Fin.ext
  fin_cases c <;> rfl

/-- Entry (r, i, u) of the array of sums is `x r i + w i u`. -/
theorem sums_apply (x0 : S16384x128.Idx → EReal) (x1 : S128x128.Idx → EReal) (r : Fin 16384) (i u : Fin 128) :
    val_main_v4 (F := Ideal) x0 x1 (ix3 r i u) = x0 (ix2 r i) + x1 (ix2 i u) := by
  rw [val_main_v4_apply, val_main_v2_apply, val_main_v0_apply, val_main_v3_apply, val_main_v1_apply]
  have e0 : idx_main_v0 (idx_main_v2 (ix3 r i u)) = ix2 r i :=
    funext fun a => Fin.ext (by match a with | ⟨0, _⟩ => rfl | ⟨1, _⟩ => rfl)
  have e1 : idx_main_v1 (idx_main_v3 (ix3 r i u)) = ix2 i u :=
    funext fun a => Fin.ext (by match a with | ⟨0, _⟩ => rfl | ⟨1, _⟩ => rfl)
  rw [e0, e1]
  rfl

/-- The reduce at (r, u) is the supremum over `i` of `x r i + w i u`. -/
theorem reduce_apply (x0 : S16384x128.Idx → EReal) (x1 : S128x128.Idx → EReal) (j : S16384x128.Idx) :
    val_main_v5 (F := Ideal) x0 x1 j
      = Finset.univ.sup fun k : Fin 128 => x0 (ix2 (j 0 : Fin 16384) k) + x1 (ix2 k (j 1 : Fin 128)) := by
  unfold val_main_v5
  have h : S16384x128x128.Reduces [1] S16384x128 := by decide
  rw [Host.reduce_eq_fold_single FloatOps.maximumf _ _ reducesTo_S16384x128x128_S16384x128_d1 h h_S_ j]
  have hf : (val_main_v4 (F := Ideal) x0 x1 ∘ h.lift j)
      = fun k : Fin 128 => x0 (ix2 (j 0 : Fin 16384) k) + x1 (ix2 k (j 1 : Fin 128)) :=
    funext fun (k : Fin 128) =>
      (congrArg (val_main_v4 (F := Ideal) x0 x1) (lift_mid h j k)).trans (sums_apply x0 x1 _ k _)
  rw [hf, val_main_cst_apply]
  show Finset.fold max (Ideal.ofBits .f32 0xFF800000#32) _ _ = _
  rw [neg_inf]
  rfl

/-- The reference's result is the max-plus dense layer of its three arguments. -/
theorem ref_eq (x0 : S16384x128.Idx → EReal) (x1 : S128x128.Idx → EReal) (x2 : S128.Idx → EReal) :
    val_main_v8 (F := Ideal) x0 x1 x2 = Cert.Spec.maxPlusDense x0 x1 x2 := by
  funext j
  rw [val_main_v8_apply, val_main_v7_apply, val_main_v6_apply, reduce_apply]
  have e : idx_main_v6 (idx_main_v7 j) = ix1 (j 1 : Fin 128) :=
    funext fun a => Fin.ext (by match a with | ⟨0, _⟩ => rfl)
  rw [e]
  rfl

end Cert.ReferenceIdeal.RefValue

end
-- ==== Proof.lean ====
/-
  A max-plus (tropical) dense layer: the kernel against its reference, on the extended reals.

  For activations `x : [16384, 128]`, weights `w : [128, 128]` and a bias `b : [128]` both programs compute

      out r u = max (sup over i of (x r i + w i u)) (b u).

  The reference forms the [16384, 128, 128] array of sums `x r i + w i u`, reduces it with `max` from `-∞` over the
  middle axis, and takes the maximum with the bias broadcast over the rows.  The kernel works on 8 blocks of 2048 rows;
  in each it starts an accumulator at the bias row and takes in the 128 sums one after the other with `max`.  The two
  agree because `max` on a linear order is associative, commutative and idempotent: a running maximum from `b u` over
  the sums is the larger of their supremum and `b u`, whatever the order, and nothing has to be finite (the sums are
  the same extended reals on both sides, `-∞` is the empty supremum).  So the precondition is never opened.

  The idealized kernel is the kernel's own text read on the extended reals (no rewrite was applied), so there is
  nothing to preserve; the kernels' frames are their frame runs (the body run part by part) and the reference's frame
  is its run with the result dropped.
-/
import proofs.«105636_j5609227288817_2_alg».proof.Defs
import proofs.«105636_j5609227288817_2_alg».proof.Proof.Gen.Kernel
import proofs.«105636_j5609227288817_2_alg».proof.Proof.Gen.Kernel.Skeleton
import proofs.«105636_j5609227288817_2_alg».proof.Proof.Gen.Kernel.Launch
import proofs.«105636_j5609227288817_2_alg».proof.Proof.Gen.Kernel.Points
import proofs.«105636_j5609227288817_2_alg».proof.Proof.Gen.KernelIdeal
import proofs.«105636_j5609227288817_2_alg».proof.Proof.Gen.KernelIdeal.Skeleton
import proofs.«105636_j5609227288817_2_alg».proof.Proof.Gen.KernelIdeal.Launch
import proofs.«105636_j5609227288817_2_alg».proof.Proof.Gen.KernelIdeal.Points
import proofs.«105636_j5609227288817_2_alg».proof.Proof.Gen.ReferenceIdeal
import proofs.«105636_j5609227288817_2_alg».proof.Proof.Gen.Pre_finite_inputs
import proofs.«105636_j5609227288817_2_alg».proof.Proof.Gen.ReferenceIdeal.Run
import proofs.«105636_j5609227288817_2_alg».proof.Proof.Gen.ReferenceIdeal.Read
import proofs.«105636_j5609227288817_2_alg».proof.Proof.KernelFrameP
import proofs.«105636_j5609227288817_2_alg».proof.Proof.KernelIdealFrameP
import proofs.«105636_j5609227288817_2_alg».proof.Proof.KernelArray
import proofs.«105636_j5609227288817_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference runs, and leaves its arguments as they were: its run with the result dropped. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- No operation of the kernel was rewritten when it was read on the extended reals. -/
theorem preserves : Cert.preserves_Kernel_KernelIdeal := trivial

/-- From memories that agree on the three arguments both programs end with the result array at
    `max (sup_i (x r i + w i u)) (b u)` of those arguments. -/
theorem algebraic : Cert.algebraic_KernelIdeal_ReferenceIdeal := by
  intro m ρ m' ρ' _ hagree
  refine ⟨fun c => Cert.Spec.maxPlusDense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
